-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 13
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .bf16⟩
  | .hbm, ⟨5, _⟩ => ⟨S32x2048x64, .f32⟩
  | .hbm, ⟨6, _⟩ => ⟨S32x2048x64, .bf16⟩
  | .hbm, ⟨7, _⟩ => ⟨S32x2048x64, .f32⟩
  | .hbm, ⟨8, _⟩ => ⟨S32x2048x64, .bf16⟩
  | .hbm, ⟨9, _⟩ => ⟨S32x2048x64, .f32⟩
  | .hbm, ⟨10, _⟩ => ⟨S32x2048x2048, .f32⟩
  | .hbm, ⟨11, _⟩ => ⟨S2x16x2048x64, .f32⟩
  | .hbm, ⟨12, _⟩ => ⟨S2x16x2048x2048, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S32x2048x64_S2x16x2048x64 : S32x2048x64.ShapeCasts S2x16x2048x64
  shapeCasts_S32x2048x2048_S2x16x2048x2048 : S32x2048x2048.ShapeCasts S2x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .bf16 = 32 ∨ (Rect.block (s := S32x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .bf16 = 32 ∨ (Rect.block (s := S32x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/- Scaled dot-product attention, one query row at a time, on the extended reals.

   For a query row `q` (64 entries), key rows `ks` and value rows `vs` (2048 rows of 64 entries each):
   the score of key `j` is the inner product of `q` with key row `j`, times 1/8; the row's maximum is taken
   over all 2048 keys starting from the f32 word of minus infinity; each score less the maximum is
   exponentiated; the exponentials are divided by their sum (the softmax probabilities); and the output
   entry `d` is the sum over the keys of the probability times entry `d` of the value row.

   Both programs compute exactly these functions; they differ in how the scale 1/8 is spelt (the f32
   word of 0.125 on one side, 1 / sqrt 64 on the other), which `inv_sqrt_64` settles. -/
import Idealize.ShloMosaic.PureOps.Ideal
import Idealize.ShloMosaic.PureOps.Ideal.Laws

noncomputable section

namespace Cert.Attn

open Idealize.ShloMosaic

/-- The f32 word of 0.125, read as an extended real. -/
abbrev eighth : EReal := Ideal.ofBits .f32 0x3E000000#32

/-- The f32 word of minus infinity, read as an extended real. -/
abbrev negInf : EReal := Ideal.ofBits .f32 0xFF800000#32

/-- The scaled score of key `j` against the query row. -/
def score (q : Fin 64 → EReal) (ks : Fin 2048 → Fin 64 → EReal) (j : Fin 2048) : EReal :=
  (∑ d : Fin 64, q d * ks j d) * eighth

/-- The largest score of the row. -/
def rowMax (q : Fin 64 → EReal) (ks : Fin 2048 → Fin 64 → EReal) : EReal :=
  (Finset.univ : Finset (Fin 2048)).fold max negInf (score q ks)

/-- The exponential of a score less the row's maximum. -/
def expo (q : Fin 64 → EReal) (ks : Fin 2048 → Fin 64 → EReal) (j : Fin 2048) : EReal :=
  Ideal.exp (score q ks j - rowMax q ks)

/-- The sum of the row's exponentials. -/
def denom (q : Fin 64 → EReal) (ks : Fin 2048 → Fin 64 → EReal) : EReal :=
  ∑ j : Fin 2048, expo q ks j

/-- The softmax probability of key `j` for the query row. -/
def prob (q : Fin 64 → EReal) (ks : Fin 2048 → Fin 64 → EReal) (j : Fin 2048) : EReal :=
  Ideal.div (expo q ks j) (denom q ks)

/-- Entry `d` of the attention output for the query row: the probabilities' mixture of the value rows. -/
def mix (q : Fin 64 → EReal) (ks vs : Fin 2048 → Fin 64 → EReal) (d : Fin 64) : EReal :=
  ∑ j : Fin 2048, prob q ks j * vs j d

/-- The maximum of minus infinity's word and a fold of `max` that starts from that word is the fold:
    the fold is at least its starting value. -/
theorem max_negInf_rowMax (q : Fin 64 → EReal) (ks : Fin 2048 → Fin 64 → EReal) :
    max negInf (rowMax q ks) = rowMax q ks :=
  max_eq_right ((Finset.le_fold_max _).mpr (Or.inl le_rfl))

/-- 64.0 denotes the real 64. -/
theorem ofBits_64 : Ideal.ofBits .f32 0x42800000#32 = ((64 : ℝ) : EReal) := by
  simp [Ideal.ofBits, Ideal.ieee, -EReal.coe_mul]; norm_num

/-- 1.0 denotes 1. -/
theorem ofBits_one : Ideal.ofBits .f32 0x3F800000#32 = ((1 : ℝ) : EReal) := by
  simp [Ideal.ofBits, Ideal.ieee, -EReal.coe_mul]; norm_num

/-- 0.125 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- One over the square root of 64, computed on the extended reals, is the f32 word of 0.125. -/
theorem inv_sqrt_64 :
    Ideal.div (Ideal.ofBits .f32 0x3F800000#32) (Ideal.sqrt (Ideal.ofBits .f32 0x42800000#32)) = eighth := by
  show _ = Ideal.ofBits .f32 0x3E000000#32
  rw [ofBits_64, ofBits_one, ofBits_eighth]
  have h : Ideal.sqrt ((64 : ℝ) : EReal) = ((8 : ℝ) : EReal) := by
    show (if (64 : ℝ) < 0 then (⊥ : EReal) else (Real.sqrt 64 : EReal)) = _
    rw [if_neg (by norm_num), sqrt_64]
  rw [h, Ideal.div_coe (by norm_num : (8 : ℝ) ≠ 0), ← EReal.coe_mul]
  norm_num

end Cert.Attn

end
-- ==== Proof.Spec.lean ====
/- The two results as functions of the three argument arrays, index by index.

   The arguments are [2, 16, 2048, 64] arrays: batch, head, token, feature. For batch `b` and head `h`, the
   probability array at (b, h, r, j) is the softmax probability of key token `j` for query token `r`, and the
   output array at (b, h, r, d) is the probabilities' mixture of the value rows at feature `d`, both over the
   rows of that batch and head only. -/
import proofs.«149483_j30562987278888_2_alg».proof.Proof.Softmax
import Idealize.ShloMosaic.Lib.ValueIdx

noncomputable section

namespace Cert.Attn

open Idealize.ShloMosaic Idealize.ShloMosaic.ValueIdx

/-- The shape of each argument and of the output: batch, head, token, feature. -/
abbrev SArg : Shape := ⟨4, ![2, 16, 2048, 64]⟩
/-- The shape of the probability array: batch, head, query token, key token. -/
abbrev SProb : Shape := ⟨4, ![2, 16, 2048, 2048]⟩

/-- Token `r`'s row of features, in batch `b` and head `h`. -/
def rowOf (x : SArg.Idx → EReal) (b : Fin 2) (h : Fin 16) (r : Fin 2048) : Fin 64 → EReal :=
  fun d => x (ix4 b h r d)

/-- All token rows of batch `b` and head `h`. -/
def rowsOf (x : SArg.Idx → EReal) (b : Fin 2) (h : Fin 16) : Fin 2048 → Fin 64 → EReal :=
  fun j d => x (ix4 b h j d)

/-- The attention probabilities of queries `q` against keys `k`. -/
def probArray (q k : SArg.Idx → EReal) : SProb.Idx → EReal :=
  fun i => prob (rowOf q (i 0) (i 1) (i 2)) (rowsOf k (i 0) (i 1)) (i 3)

/-- The attention output: the probabilities' mixture of the values `v`. -/
def outArray (q k v : SArg.Idx → EReal) : SArg.Idx → EReal :=
  fun i => mix (rowOf q (i 0) (i 1) (i 2)) (rowsOf k (i 0) (i 1)) (rowsOf v (i 0) (i 1)) (i 3)

theorem probArray_ix4 (q k : SArg.Idx → EReal) (b : Fin 2) (h : Fin 16) (r j : Fin 2048) :
    probArray q k (ix4 b h r j) = prob (rowOf q b h r) (rowsOf k b h) j := rfl

theorem outArray_ix4 (q k v : SArg.Idx → EReal) (b : Fin 2) (h : Fin 16) (r : Fin 2048) (d : Fin 64) :
    outArray q k v (ix4 b h r d) = mix (rowOf q b h r) (rowsOf k b h) (rowsOf v b h) d := rfl

end Cert.Attn

end
-- ==== Proof.Reference.lean ====
/- The reference program's two results are the attention probabilities and the attention output.

   Its operations are read one at a time at an index (the generated stage lemmas), each identified with the
   matching step of the row functions: the contraction over the 64 features is the score's sum; the constant
   1 / sqrt 64 is the f32 word of 0.125; the maximum over the key axis is the row's fold of `max` (taking the
   maximum with minus infinity once more changes nothing); the sum over the key axis starts from zero; and the
   last contraction over the key axis is the mixture of the value rows. -/
import proofs.«149483_j30562987278888_2_alg».proof.Proof.Gen.ReferenceIdeal.Read
import proofs.«149483_j30562987278888_2_alg».proof.Proof.Spec
import Idealize.ShloMosaic.Lib.ValueIdx
import Idealize.ShloMosaic.PureOps.Ideal.Laws

noncomputable section

namespace Cert.Attn.Reference

open Idealize.ShloMosaic Idealize.ShloMosaic.ValueIdx Cert.ReferenceIdeal Cert.ReferenceIdeal.Gen
open Cert.ReferenceIdeal.Read Cert.Attn

variable (q k v : (⟨S2x16x2048x64, .f32⟩ : BufTy).Contents (Elt Ideal))

/-- The scaled scores: the feature contraction times 1 / sqrt 64. -/
theorem score_ix4 (b : Fin 2) (h : Fin 16) (r j : Fin 2048) :
    val_main_v4 (F := Ideal) q k (ix4 b h r j) = score (rowOf q b h r) (rowsOf k b h) j := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def]
  rw [inv_sqrt_64]
  unfold score
  refine congrArg (· * eighth) (Finset.sum_congr rfl fun d _ => ?_)
  have el : lidx_main_v2 (ix4 b h r j) d = ix4 b h r d := funext fun a => by
    match a with | ⟨0, _⟩ => rfl | ⟨1, _⟩ => rfl | ⟨2, _⟩ => rfl | ⟨3, _⟩ => rfl
  have er : ridx_main_v2 (ix4 b h r j) d = ix4 b h j d := funext fun a => by
    match a with | ⟨0, _⟩ => rfl | ⟨1, _⟩ => rfl | ⟨2, _⟩ => rfl | ⟨3, _⟩ => rfl
  rw [el, er]
  rfl

/-- Putting key token `kk` back into (b, h, r) gives (b, h, r, kk). -/
theorem lift_key (hr : S2x16x2048x2048.Reduces [3] S2x16x2048) (b : Fin 2) (h : Fin 16) (r : Fin 2048)
    (kk : Fin (S2x16x2048x2048.size 3)) : hr.lift (ix3 b h r) kk = ix4 b h r (⟨kk.val, kk.isLt⟩ : Fin 2048) := by
  funext c; apply Fin.ext
  fin_cases c <;> rfl

/-- The row maxima. -/
theorem max_ix3 (b : Fin 2) (h : Fin 16) (r : Fin 2048) :
    val_main_v7 (F := Ideal) q k (ix3 b h r) = rowMax (rowOf q b h r) (rowsOf k b h) := by
  have h5 : val_main_v5 (F := Ideal) q k (ix3 b h r) = rowMax (rowOf q b h r) (rowsOf k b h) := by
    unfold val_main_v5
    refine (Host.reduce_eq_fold_single FloatOps.maximumf _ _ reducesTo_S2x16x2048x2048_S2x16x2048_d3 (by decide) h_S_
      (ix3 b h r)).trans ?_
    unfold rowMax
    exact congrArg (fun f => Finset.fold max negInf f (Finset.univ : Finset (Fin 2048)))
      (funext fun kk => (congrArg (val_main_v4 (F := Ideal) q k) (lift_key _ b h r kk)).trans (score_ix4 q k b h r _))
  rw [val_main_v7_apply, val_main_v6_apply, val_main_cst_2_apply, h5]
  exact max_negInf_rowMax _ _

/-- The exponentials. -/
theorem expo_ix4 (b : Fin 2) (h : Fin 16) (r j : Fin 2048) :
    val_main_v11 (F := Ideal) q k (ix4 b h r j) = expo (rowOf q b h r) (rowsOf k b h) j := by
  rw [val_main_v11_apply, val_main_v10_apply, val_main_v9_apply, val_main_v8_apply]
  have e : idx_main_v8 (idx_main_v9 (ix4 b h r j)) = ix3 b h r := funext fun a => by
    match a with | ⟨0, _⟩ => rfl | ⟨1, _⟩ => rfl | ⟨2, _⟩ => rfl
  rw [e, max_ix3, score_ix4]
  rfl

/-- The row sums of the exponentials. -/
theorem denom_ix3 (b : Fin 2) (h : Fin 16) (r : Fin 2048) :
    val_main_v12 (F := Ideal) q k (ix3 b h r) = denom (rowOf q b h r) (rowsOf k b h) := by
  rw [val_main_v12_apply, val_main_cst_3_apply]
  simp only [Ideal.ofBits_def, Ideal.ofBits_zero_f32, zero_add]
  unfold denom
  refine Finset.sum_congr rfl fun kk _ => ?_
  have e : idx_main_v12 (ix3 b h r) kk = ix4 b h r kk := funext fun a => by
    match a with | ⟨0, _⟩ => rfl | ⟨1, _⟩ => rfl | ⟨2, _⟩ => rfl | ⟨3, _⟩ => rfl
  rw [e]
  exact expo_ix4 q k b h r kk

/-- The probabilities. -/
theorem prob_ix4 (b : Fin 2) (h : Fin 16) (r j : Fin 2048) :
    val_main_v15 (F := Ideal) q k (ix4 b h r j) = prob (rowOf q b h r) (rowsOf k b h) j := by
  rw [val_main_v15_apply, val_main_v14_apply, val_main_v13_apply]
  have e : idx_main_v13 (idx_main_v14 (ix4 b h r j)) = ix3 b h r := funext fun a => by
    match a with | ⟨0, _⟩ => rfl | ⟨1, _⟩ => rfl | ⟨2, _⟩ => rfl
  rw [e, denom_ix3, expo_ix4]
  rfl

/-- The output: the probabilities contracted with the values over the key axis. -/
theorem out_ix4 (b : Fin 2) (h : Fin 16) (r : Fin 2048) (d : Fin 64) :
    val_main_v16 (F := Ideal) q k v (ix4 b h r d) = mix (rowOf q b h r) (rowsOf k b h) (rowsOf v b h) d := by
  rw [val_main_v16_apply]
  unfold mix
  refine Finset.sum_congr rfl fun kk _ => ?_
  have el : lidx_main_v16 (ix4 b h r d) kk = ix4 b h r kk := funext fun a => by
    match a with | ⟨0, _⟩ => rfl | ⟨1, _⟩ => rfl | ⟨2, _⟩ => rfl | ⟨3, _⟩ => rfl
  have er : ridx_main_v16 (ix4 b h r d) kk = ix4 b h kk d := funext fun a => by
    match a with | ⟨0, _⟩ => rfl | ⟨1, _⟩ => rfl | ⟨2, _⟩ => rfl | ⟨3, _⟩ => rfl
  rw [el, er, prob_ix4]
  rfl

/-- The reference's probability result is the probability array of its arguments. -/
theorem prob_eq : val_main_v15 (F := Ideal) q k = probArray q k := funext fun i => by
  obtain ⟨b, h, r, j, rfl⟩ : ∃ (b : Fin 2) (h : Fin 16) (r j : Fin 2048), i = ix4 b h r j :=
    ⟨i 0, i 1, i 2, i 3, eq_ix4 i⟩
  exact prob_ix4 q k b h r j

/-- The reference's output result is the output array of its arguments. -/
theorem out_eq : val_main_v16 (F := Ideal) q k v = outArray q k v := funext fun i => by
  obtain ⟨b, h, r, d, rfl⟩ : ∃ (b : Fin 2) (h : Fin 16) (r : Fin 2048) (d : Fin 64), i = ix4 b h r d :=
    ⟨i 0, i 1, i 2, i 3, eq_ix4 i⟩
  exact out_ix4 q k v b h r d

end Cert.Attn.Reference

end
-- ==== Proof.Arrays.lean ====
/- The arrays the kernel region finds and the arrays the program returns, as functions of the arguments.

   Before the region each [2, 16, 2048, 64] argument is viewed as [32, 2048, 64], batch and head merged into
   one leading axis (entry (16 b + h, r, d) is entry (b, h, r, d)), and rounded to bf16, which on the extended
   reals changes nothing. After the region each result is viewed back with the leading axis split. -/
import proofs.«149483_j30562987278888_2_alg».proof.Proof.Gen.KernelIdeal.Frame
import Idealize.ShloMosaic.Lib.Pipeline.Value
import Idealize.ShloMosaic.Lib.ValueIdx
import Idealize.ShloMosaic.Lib.StableHlo.Run

noncomputable section

namespace Cert.Attn.Arrays

open Idealize.ShloMosaic Idealize.ShloMosaic.ValueIdx Idealize.ShloMosaic.TcCoe Idealize.SL.Sem
open Cert.KernelIdeal Cert.KernelIdeal.Gen

/-- Batch and head merged: a [2, 16, 2048, n] array viewed as [32, 2048, n] reads (b, h, r, d) at (16 b + h, r, d). -/
theorem merge_apply {n : ℕ} {α : Type} (x : (⟨4, ![2, 16, 2048, n]⟩ : Shape).Idx → α)
    (hc : (⟨4, ![2, 16, 2048, n]⟩ : Shape).ShapeCasts ⟨3, ![32, 2048, n]⟩)
    (bh : Fin 32) (r : Fin 2048) (d : Fin n) (b : Fin 2) (h : Fin 16) (e : bh.val = b.val * 16 + h.val) :
    shapeCast ⟨3, ![32, 2048, n]⟩ x hc (ix3 bh r d) = x (ix4 b h r d) :=
  shapeCast_apply x hc _ _ (by
    rw [Shape.rowMajor_val_four, Shape.rowMajor_val_three]
    show ((b.val * 16 + h.val) * 2048 + r.val) * n + d.val = (bh.val * 2048 + r.val) * n + d.val
    rw [e])

/-- The leading axis split back: a [32, 2048, n] array viewed as [2, 16, 2048, n] reads (16 b + h, r, d) at (b, h, r, d). -/
theorem split_apply {n : ℕ} {α : Type} (x : (⟨3, ![32, 2048, n]⟩ : Shape).Idx → α)
    (hc : (⟨3, ![32, 2048, n]⟩ : Shape).ShapeCasts ⟨4, ![2, 16, 2048, n]⟩)
    (b : Fin 2) (h : Fin 16) (r : Fin 2048) (d : Fin n) (bh : Fin 32) (e : bh.val = b.val * 16 + h.val) :
    shapeCast ⟨4, ![2, 16, 2048, n]⟩ x hc (ix4 b h r d) = x (ix3 bh r d) :=
  shapeCast_apply x hc _ _ (by
    rw [Shape.rowMajor_val_four, Shape.rowMajor_val_three]
    show (bh.val * 2048 + r.val) * n + d.val = ((b.val * 16 + h.val) * 2048 + r.val) * n + d.val
    rw [e])

variable (m : (ℓ : Loc nD τ sig) → Buf (Elt Ideal) ℓ)

/-- The queries as the region finds them: the first argument with batch and head merged. -/
theorem V_main_v1 (c : Dev nD) : (V m c main_v1 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v1) = _
  after_results
  rfl

/-- The keys as the region finds them: the second argument with batch and head merged. -/
theorem V_main_v3 (c : Dev nD) : (V m c main_v3 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v3) = _
  after_results
  rfl

/-- The values as the region finds them: the third argument with batch and head merged. -/
theorem V_main_v5 (c : Dev nD) : (V m c main_v5 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v5) = _
  after_results
  rfl

end Cert.Attn.Arrays

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.Body.lean ====
/- What the kernel body computes from its three loaded blocks, read entry by entry.

   The body takes a [1, 512, 64] block of queries and [1, 2048, 64] blocks of keys and values. Row `r` of the
   probability block it stores is the softmax of query row `r`'s scaled scores against all 2048 keys, and row `r`
   of the output block is those probabilities' mixture of the value rows: the functions `Cert.Attn.prob` and
   `Cert.Attn.mix` of the block's rows. The steps: a matrix product read at an entry is a sum over the
   contracted axis; a lane reduction read at a row is the fold or sum along that row; the column casts and the
   broadcast back to the full width read the row's value at every lane. -/
import proofs.«149483_j30562987278888_2_alg».proof.Proof.Gen.KernelIdeal.Skeleton
import proofs.«149483_j30562987278888_2_alg».proof.Proof.Softmax
import proofs.«149483_j30562987278888_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.Attn.Body

open Idealize.ShloMosaic Idealize.ShloMosaic.ValueIdx Cert.KernelIdeal Cert.KernelIdeal.Gen Cert.Attn

/-! ## A row reduction read at a row -/

/-- Putting lane `k` back into row `r` of a matrix gives entry (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The maximum along the lanes, at row `r`: the fold of `max` over the row from the accumulator's value. -/
theorem rowMax_apply {a b : ℕ} (x : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ x acc h hφ hacc (ix1 r)
      = (Finset.univ : Finset (Fin b)).fold max (Ideal.ofBits .f32 acc) (fun k => x (ix2 r k)) := by
  refine (Ideal.multiReduction_maximumf_single x acc h hφ hacc (ix1 r)).trans ?_
  exact congrArg (fun f => Finset.fold max (Ideal.ofBits .f32 acc) f (Finset.univ : Finset (Fin b)))
    (funext fun k => congrArg x (lift_row h r k))

/-- The sum along the lanes, at row `r`. -/
theorem rowSum_apply {a b : ℕ} (x : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_row h r k)

/-! ## The two matrix products read at an entry -/

/-- The dimension numbers of queries times keys (both contracted along their 64 features). -/
abbrev DQK : DotDims S512x64 S2048x64 S512x2048 := dot_S512x64_S2048x64_S512x2048_1_1_0_0_n_n
/-- The dimension numbers of probabilities times values (contracted along the 2048 keys). -/
abbrev DPV : DotDims S512x2048 S2048x64 S512x64 := dot_S512x2048_S2048x64_S512x64_1_0_0_1_n_n

theorem qk_lhs0 (i : S512x2048.Idx) (q : DQK.contr.Idx) : (DQK.lhsIdx i q 0).val = (i 0).val := by
  unfold DotDims.lhsIdx
  rw [dif_neg (show ¬(0 : Fin S512x64.rank) ∈ DQK.lhsBatch by decide), dif_pos (show (0 : Fin S512x64.rank) ∈ DQK.lhsNonContracting by decide)]
  rfl
theorem qk_lhs1 (i : S512x2048.Idx) (q : DQK.contr.Idx) : (DQK.lhsIdx i q 1).val = (q ⟨0, by decide⟩).val :=
  DQK.lhsIdx_val_of_single rfl i q
theorem qk_rhs0 (i : S512x2048.Idx) (q : DQK.contr.Idx) : (DQK.rhsIdx i q 0).val = (i 1).val := by
  unfold DotDims.rhsIdx
  rw [dif_neg (show ¬(0 : Fin S2048x64.rank) ∈ DQK.rhsBatch by decide), dif_pos (show (0 : Fin S2048x64.rank) ∈ DQK.rhsNonContracting by decide)]
  rfl
theorem qk_rhs1 (i : S512x2048.Idx) (q : DQK.contr.Idx) : (DQK.rhsIdx i q 1).val = (q ⟨0, by decide⟩).val :=
  DQK.rhsIdx_val_of_single rfl i q

/-- Queries times keys, into a zero accumulator, at (r, j): the inner product of query row `r` and key row `j`. -/
theorem qk_apply (x : FVec Ideal S512x64 .bf16) (y : FVec Ideal S2048x64 .bf16) (r : Fin 512) (j : Fin 2048) :
    matmul DQK none x y (constant (F := Ideal) S512x2048 .f32 0x00000000#32) (ix2 r j)
      = ∑ d : Fin 64, x (ix2 r d) * y (ix2 j d) := by
  refine (Ideal.matmul_constant_zero_apply DQK none x y (ix2 r j)).trans ?_
  rw [← Equiv.sum_comp (contrEquiv1 DQK 64 rfl rfl).symm]
  refine Finset.sum_congr rfl fun k _ => ?_
  have hk := contrEquiv1_symm_val DQK 64 rfl rfl k
  have el : DQK.lhsIdx (ix2 r j) ((contrEquiv1 DQK 64 rfl rfl).symm k) = ix2 r k := funext fun a => Fin.ext (by
    match a with
    | ⟨0, _⟩ => exact qk_lhs0 _ _
    | ⟨1, _⟩ => exact (qk_lhs1 _ _).trans hk)
  have er : DQK.rhsIdx (ix2 r j) ((contrEquiv1 DQK 64 rfl rfl).symm k) = ix2 j k := funext fun a => Fin.ext (by
    match a with
    | ⟨0, _⟩ => exact qk_rhs0 _ _
    | ⟨1, _⟩ => exact (qk_rhs1 _ _).trans hk)
  rw [el, er]

theorem pv_lhs0 (i : S512x64.Idx) (q : DPV.contr.Idx) : (DPV.lhsIdx i q 0).val = (i 0).val := by
  unfold DotDims.lhsIdx
  rw [dif_neg (show ¬(0 : Fin S512x2048.rank) ∈ DPV.lhsBatch by decide), dif_pos (show (0 : Fin S512x2048.rank) ∈ DPV.lhsNonContracting by decide)]
  rfl
theorem pv_lhs1 (i : S512x64.Idx) (q : DPV.contr.Idx) : (DPV.lhsIdx i q 1).val = (q ⟨0, by decide⟩).val :=
  DPV.lhsIdx_val_of_single rfl i q
theorem pv_rhs0 (i : S512x64.Idx) (q : DPV.contr.Idx) : (DPV.rhsIdx i q 0).val = (q ⟨0, by decide⟩).val :=
  DPV.rhsIdx_val_of_single rfl i q
theorem pv_rhs1 (i : S512x64.Idx) (q : DPV.contr.Idx) : (DPV.rhsIdx i q 1).val = (i 1).val := by
  unfold DotDims.rhsIdx
  rw [dif_neg (show ¬(1 : Fin S2048x64.rank) ∈ DPV.rhsBatch by decide), dif_pos (show (1 : Fin S2048x64.rank) ∈ DPV.rhsNonContracting by decide)]
  rfl

/-- Probabilities times values, into a zero accumulator, at (r, d): the sum over the keys of the probability at
    (r, j) times entry `d` of value row `j`. -/
theorem pv_apply (p : FVec Ideal S512x2048 .bf16) (v : FVec Ideal S2048x64 .bf16) (r : Fin 512) (d : Fin 64) :
    matmul DPV none p v (constant (F := Ideal) S512x64 .f32 0x00000000#32) (ix2 r d)
      = ∑ j : Fin 2048, p (ix2 r j) * v (ix2 j d) := by
  refine (Ideal.matmul_constant_zero_apply DPV none p v (ix2 r d)).trans ?_
  rw [← Equiv.sum_comp (contrEquiv1 DPV 2048 rfl rfl).symm]
  refine Finset.sum_congr rfl fun k _ => ?_
  have hk := contrEquiv1_symm_val DPV 2048 rfl rfl k
  have el : DPV.lhsIdx (ix2 r d) ((contrEquiv1 DPV 2048 rfl rfl).symm k) = ix2 r k := funext fun a => Fin.ext (by
    match a with
    | ⟨0, _⟩ => exact pv_lhs0 _ _
    | ⟨1, _⟩ => exact (pv_lhs1 _ _).trans hk)
  have er : DPV.rhsIdx (ix2 r d) ((contrEquiv1 DPV 2048 rfl rfl).symm k) = ix2 k d := funext fun a => Fin.ext (by
    match a with
    | ⟨0, _⟩ => exact (pv_rhs0 _ _).trans hk
    | ⟨1, _⟩ => exact pv_rhs1 _ _)
  rw [el, er]

/-! ## The body's softmax chain on a score matrix -/

/-- The row maxima of a [512, 2048] matrix, as a column broadcast back over the 2048 lanes. -/
def maxCol (s : FVec Ideal S512x2048 .f32) : FVec Ideal S512x2048 .f32 :=
  broadcastTo S512x2048 (shapeCast S512x1 (multiReduction .maximumf [1] S512 s 0xFF800000#32 reduces_S512x2048_S512 (.inl rfl) rfl)
    shapeCasts_S512_S512x1) broadcasts_S512x1_S512x2048

/-- The row sums of a [512, 2048] matrix, as a column broadcast back over the 2048 lanes. -/
def sumCol (e : FVec Ideal S512x2048 .f32) : FVec Ideal S512x2048 .f32 :=
  broadcastTo S512x2048 (shapeCast S512x1 (multiReduction .add [1] S512 e 0x00000000#32 reduces_S512x2048_S512 (.inl rfl) rfl)
    shapeCasts_S512_S512x1) broadcasts_S512x1_S512x2048

/-- The exponentials of the entries less their row's maximum. -/
def expRows (s : FVec Ideal S512x2048 .f32) : FVec Ideal S512x2048 .f32 := exp (subf s (maxCol s))

/-- Each row's exponentials divided by their sum. -/
def softmaxRows (s : FVec Ideal S512x2048 .f32) : FVec Ideal S512x2048 .f32 := divf (expRows s) (sumCol (expRows s))

/-- The scaled score matrix of a query block against a key block. -/
def scores (x0 : Vec Ideal S1x512x64 .bf16) (x1 : Vec Ideal S1x2048x64 .bf16) : FVec Ideal S512x2048 .f32 :=
  mulf (matmul DQK none (shapeCast S512x64 x0 shapeCasts_S1x512x64_S512x64 : FVec Ideal S512x64 .bf16)
      (shapeCast S2048x64 x1 shapeCasts_S1x2048x64_S2048x64 : FVec Ideal S2048x64 .bf16)
      (constant S512x2048 .f32 0x00000000#32))
    (broadcast S512x2048 (Scalar.ofBits .f32 0x3E000000#32))

/-- The body's probability value is the row softmax of the score matrix. -/
theorem pay1_eq (x0 : Vec Ideal S1x512x64 .bf16) (x1 : Vec Ideal S1x2048x64 .bf16) :
    k0_pay1 x0 x1 = softmaxRows (scores x0 x1) := rfl

theorem maxCol_apply (s : FVec Ideal S512x2048 .f32) (r : Fin 512) (j : Fin 2048) :
    maxCol s (ix2 r j) = (Finset.univ : Finset (Fin 2048)).fold max negInf (fun k => s (ix2 r k)) :=
  (Cert.LibLayout.broadcastTo_a1_ab_apply _ broadcasts_S512x1_S512x2048 r j).trans
    ((Cert.LibLayout.shapeCast_a_a1_apply _ shapeCasts_S512_S512x1 r).trans
      (rowMax_apply s _ reduces_S512x2048_S512 (.inl rfl) rfl r))

theorem sumCol_apply (e : FVec Ideal S512x2048 .f32) (r : Fin 512) (j : Fin 2048) :
    sumCol e (ix2 r j) = ∑ k : Fin 2048, e (ix2 r k) :=
  (Cert.LibLayout.broadcastTo_a1_ab_apply _ broadcasts_S512x1_S512x2048 r j).trans
    ((Cert.LibLayout.shapeCast_a_a1_apply _ shapeCasts_S512_S512x1 r).trans
      (rowSum_apply e _ reduces_S512x2048_S512 (.inl rfl) rfl r))

theorem expRows_apply (s : FVec Ideal S512x2048 .f32) (r : Fin 512) (j : Fin 2048) :
    expRows s (ix2 r j)
      = Ideal.exp (s (ix2 r j) - (Finset.univ : Finset (Fin 2048)).fold max negInf (fun k => s (ix2 r k))) := by
  show Ideal.exp (s (ix2 r j) - maxCol s (ix2 r j)) = _
  rw [maxCol_apply]

theorem softmaxRows_apply (s : FVec Ideal S512x2048 .f32) (r : Fin 512) (j : Fin 2048) :
    softmaxRows s (ix2 r j)
      = Ideal.div (Ideal.exp (s (ix2 r j) - (Finset.univ : Finset (Fin 2048)).fold max negInf (fun k => s (ix2 r k))))
          (∑ k' : Fin 2048, Ideal.exp (s (ix2 r k') - (Finset.univ : Finset (Fin 2048)).fold max negInf (fun k => s (ix2 r k)))) := by
  show Ideal.div (expRows s (ix2 r j)) (sumCol (expRows s) (ix2 r j)) = _
  rw [sumCol_apply, expRows_apply]
  exact congrArg (Ideal.div _) (Finset.sum_congr rfl fun k' _ => expRows_apply s r k')

/-- The score matrix at (r, j) is the scaled score of key row `j` against query row `r` of the blocks. -/
theorem scores_apply (x0 : Vec Ideal S1x512x64 .bf16) (x1 : Vec Ideal S1x2048x64 .bf16) (r : Fin 512) (j : Fin 2048) :
    scores x0 x1 (ix2 r j) = score (fun d => x0 (ix3 (0 : Fin 1) r d)) (fun j' d => x1 (ix3 (0 : Fin 1) j' d)) j := by
  have h1 : scores x0 x1 (ix2 r j)
      = matmul DQK none (shapeCast S512x64 x0 shapeCasts_S1x512x64_S512x64 : FVec Ideal S512x64 .bf16)
          (shapeCast S2048x64 x1 shapeCasts_S1x2048x64_S2048x64 : FVec Ideal S2048x64 .bf16)
          (constant (F := Ideal) S512x2048 .f32 0x00000000#32) (ix2 r j) * eighth := rfl
  rw [h1, qk_apply]
  unfold score
  refine congrArg (· * eighth) (Finset.sum_congr rfl fun d _ => ?_)
  rw [shapeCast_1ab_ab_apply, shapeCast_1ab_ab_apply]

/-- THE PROBABILITY VALUE at (r, j): the softmax probability of key row `j` for query row `r` of the blocks. -/
theorem pay1_apply (x0 : Vec Ideal S1x512x64 .bf16) (x1 : Vec Ideal S1x2048x64 .bf16) (r : Fin 512) (j : Fin 2048) :
    k0_pay1 x0 x1 (ix2 r j) = prob (fun d => x0 (ix3 (0 : Fin 1) r d)) (fun j' d => x1 (ix3 (0 : Fin 1) j' d)) j := by
  rw [pay1_eq, softmaxRows_apply]
  simp only [scores_apply]
  rfl

/-- The stored probability block at (0, r, j). -/
theorem pay2_apply (x0 : Vec Ideal S1x512x64 .bf16) (x1 : Vec Ideal S1x2048x64 .bf16) (u : Fin 1) (r : Fin 512) (j : Fin 2048) :
    k0_pay2 x0 x1 (ix3 u r j) = prob (fun d => x0 (ix3 (0 : Fin 1) r d)) (fun j' d => x1 (ix3 (0 : Fin 1) j' d)) j := by
  unfold k0_pay2
  exact (shapeCast_ab_1ab_apply _ shapeCasts_S512x2048_S1x512x2048 u r j).trans (pay1_apply x0 x1 r j)

/-- The stored output block at (0, r, d): the probabilities' mixture of the value block's rows. -/
theorem pay3_apply (x0 : Vec Ideal S1x512x64 .bf16) (x1 x2 : Vec Ideal S1x2048x64 .bf16) (u : Fin 1) (r : Fin 512) (d : Fin 64) :
    k0_pay3 x0 x1 x2 (ix3 u r d)
      = mix (fun d' => x0 (ix3 (0 : Fin 1) r d')) (fun j' d' => x1 (ix3 (0 : Fin 1) j' d')) (fun j' d' => x2 (ix3 (0 : Fin 1) j' d')) d := by
  unfold k0_pay3
  refine (shapeCast_ab_1ab_apply _ shapeCasts_S512x64_S1x512x64 u r d).trans ?_
  refine (pv_apply _ _ r d).trans ?_
  unfold mix
  refine Finset.sum_congr rfl fun j _ => ?_
  rw [shapeCast_1ab_ab_apply]
  exact congrArg (· * x2 (ix3 (0 : Fin 1) j d)) (pay1_apply x0 x1 r j)

end Cert.Attn.Body

end
-- ==== Proof.Blocks.lean ====
/- From what each grid point writes back to the two whole result arrays of the region.

   The grid is 32 x 4: point (bh, qi) handles the merged batch-head `bh` and the block of 512 query tokens
   number `qi`. Its query block is rows 512 qi .. 512 qi + 511 of array slice `bh`; its key and value blocks
   are all 2048 rows of slice `bh`; it writes back rows 512 qi .. 512 qi + 511 of slice `bh` of both results.
   So what a point writes back is the point's block of ONE function of the region's input arrays (the
   probabilities, and the mixture of the value rows, computed within slice `bh`), and since the 128 blocks
   tile each result array, after the run each array is that function. -/
import proofs.«149483_j30562987278888_2_alg».proof.Proof.Gen.KernelIdeal.Frame
import proofs.«149483_j30562987278888_2_alg».proof.Proof.Body
import Idealize.ShloMosaic.Lib.Pipeline.Value
import Idealize.ShloMosaic.Lib.ValueIdx

noncomputable section

namespace Cert.Attn.Blocks

open Cert.KernelIdeal Cert.KernelIdeal.Gen Idealize.ShloMosaic Idealize.ShloMosaic.TcCoe Idealize.SL.Sem
open Idealize.ShloMosaic.ValueIdx Cert.Attn Cert.Attn.Body
open Idealize.ShloMosaic.Pipeline (Dat)

variable (m : (ℓ : Loc nD τ sig) → Buf (Elt Ideal) ℓ)

/-! ## The results as functions of the region's input arrays -/

/-- The probabilities within each merged batch-head slice of [32, 2048, 64] queries and keys. -/
def probSlices (Q K : S32x2048x64.Idx → EReal) : S32x2048x2048.Idx → EReal :=
  fun i => prob (fun d => Q (ix3 (i 0) (i 1) d)) (fun j d => K (ix3 (i 0) j d)) (i 2)

/-- The mixture of the value rows within each merged batch-head slice. -/
def outSlices (Q K W : S32x2048x64.Idx → EReal) : S32x2048x64.Idx → EReal :=
  fun i => mix (fun d => Q (ix3 (i 0) (i 1) d)) (fun j d => K (ix3 (i 0) j d)) (fun j d => W (ix3 (i 0) j d)) (i 2)

/-- The body's stored probability block at (u, r, j) is `probSlices` at an array index `i` whenever the query
    block's row `r` is row `i 1` of slice `i 0`, the key block is slice `i 0`, and `j` is `i 2`. -/
theorem pay2_block (x0 : Vec Ideal S1x512x64 .bf16) (x1 : Vec Ideal S1x2048x64 .bf16) (Q K : S32x2048x64.Idx → EReal)
    (u : Fin 1) (r : Fin 512) (j : Fin 2048) (i : S32x2048x2048.Idx)
    (hq : ∀ d : Fin 64, x0 (ix3 (0 : Fin 1) r d) = Q (ix3 (i 0) (i 1) d))
    (hk : ∀ (j' : Fin 2048) (d : Fin 64), x1 (ix3 (0 : Fin 1) j' d) = K (ix3 (i 0) j' d))
    (hj : j.val = (i 2).val) : k0_pay2 x0 x1 (ix3 u r j) = probSlices Q K i := by
  rw [pay2_apply]
  unfold probSlices
  rw [funext hq, show (fun j' d => x1 (ix3 (0 : Fin 1) j' d)) = fun j' d => K (ix3 (i 0) j' d) from
    funext fun j' => funext (hk j'), show j = i 2 from Fin.ext hj]

/-- The body's stored output block at (u, r, d) is `outSlices` at an array index `i` likewise. -/
theorem pay3_block (x0 : Vec Ideal S1x512x64 .bf16) (x1 x2 : Vec Ideal S1x2048x64 .bf16) (Q K W : S32x2048x64.Idx → EReal)
    (u : Fin 1) (r : Fin 512) (d : Fin 64) (i : S32x2048x64.Idx)
    (hq : ∀ d' : Fin 64, x0 (ix3 (0 : Fin 1) r d') = Q (ix3 (i 0) (i 1) d'))
    (hk : ∀ (j' : Fin 2048) (d' : Fin 64), x1 (ix3 (0 : Fin 1) j' d') = K (ix3 (i 0) j' d'))
    (hv : ∀ (j' : Fin 2048) (d' : Fin 64), x2 (ix3 (0 : Fin 1) j' d') = W (ix3 (i 0) j' d'))
    (hd : d.val = (i 2).val) : k0_pay3 x0 x1 x2 (ix3 u r d) = outSlices Q K W i := by
  rw [pay3_apply]
  unfold outSlices
  rw [funext hq, show (fun j' d' => x1 (ix3 (0 : Fin 1) j' d')) = fun j' d' => K (ix3 (i 0) j' d') from
    funext fun j' => funext (hk j'), show (fun j' d' => x2 (ix3 (0 : Fin 1) j' d')) = fun j' d' => W (ix3 (i 0) j' d') from
    funext fun j' => funext (hv j'), show d = i 2 from Fin.ext hd]

/-! ## The index maps over the grid -/

theorem hz3 : (![0, 0, 0] : Fin 3 → Nat) = fun _ => 0 := funext fun a => by fin_cases a <;> rfl

/-- Decided over the 128 points: the query and both result windows move together (slice, block of rows, 0);
    the key and value windows follow the slice only; the block indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) < 32 ∧ win0_4.index t (1 : Fin 3) < 4 :=
  (by decide +kernel : ∀ t : Fin grid0.N, _)

/-- Every (slice, block of rows) is some point's, for both result windows. -/
theorem idx_onto : ∀ (q0 : Fin 32) (q1 : Fin 4), ∃ t : Fin cfg0.N,
    win0_4.index t = ![q0.val, q1.val, 0] ∧ win0_3.index t = ![q0.val, q1.val, 0] :=
  (by decide +kernel : ∀ (q0 : Fin 32) (q1 : Fin 4), ∃ t : Fin grid0.N,
    win0_4.index t = ![q0.val, q1.val, 0] ∧ win0_3.index t = ![q0.val, q1.val, 0])

/-! ## What a point writes back -/

/-- The probability block a point writes back is its block of `probSlices` of the region's queries and keys. -/
theorem flushed4_eq (c : Dev nD) (t : Fin cfg0.N) :
    (dats m 0 c).flushed 4 t = ((cfg0.win 4).blk t).view.read (Elt Ideal) (probSlices (V m c main_v1) (V m c main_v3)) := by
  show (cfg0.win 4).cut (grid0.coords t) ((dats m 0 c).after 4 t) = _
  rw [after0_4]
  unfold out0_4
  rw [View.canon_unit_zero hz3]
  simp only [View.ld_unit_zero (S := S1x512x64) hz3, View.ld_unit_zero (S := S1x2048x64) hz3]
  obtain ⟨e00, e01, e02, e10, e11, e12, e20, e21, e22, e30, e31, e32, e42, b40, b41⟩ := idx_facts t
  have key : ∀ (u : Fin 1) (r : Fin 512) (j : Fin 2048),
      k0_pay2 (iblk m c 0 t) (iblk m c 1 t) (ix3 u r j)
        = probSlices (V m c main_v1) (V m c main_v3) (((cfg0.win 4).blk t).view.emb (ix3 u r j)) := by
    intro u r j
    have hu : u.val = 0 := by omega
    refine pay2_block _ _ _ _ u r j _ ?_ ?_ ?_
    · intro d
      show V m c main_v1 (((cfg0.win 0).blk t).view.emb (ix3 (0 : Fin 1) r d)) = V m c main_v1 _
      refine congrArg _ (funext fun a => Fin.ext ?_)
      match a with
      | ⟨0, _⟩ => show win0_0.index t (0 : Fin 3) * 1 + 1 * 0 = win0_4.index t (0 : Fin 3) * 1 + 1 * u.val; omega
      | ⟨1, _⟩ => show win0_0.index t (1 : Fin 3) * 512 + 1 * r.val = win0_4.index t (1 : Fin 3) * 512 + 1 * r.val; omega
      | ⟨2, _⟩ => show win0_0.index t (2 : Fin 3) * 64 + 1 * d.val = d.val; omega
    · intro j' d
      show V m c main_v3 (((cfg0.win 1).blk t).view.emb (ix3 (0 : Fin 1) j' d)) = V m c main_v3 _
      refine congrArg _ (funext fun a => Fin.ext ?_)
      match a with
      | ⟨0, _⟩ => show win0_1.index t (0 : Fin 3) * 1 + 1 * 0 = win0_4.index t (0 : Fin 3) * 1 + 1 * u.val; omega
      | ⟨1, _⟩ => show win0_1.index t (1 : Fin 3) * 2048 + 1 * j'.val = j'.val; omega
      | ⟨2, _⟩ => show win0_1.index t (2 : Fin 3) * 64 + 1 * d.val = d.val; omega
    · show j.val = win0_4.index t (2 : Fin 3) * 2048 + 1 * j.val; omega
  have key' : ∀ y : S1x512x2048.Idx, k0_pay2 (iblk m c 0 t) (iblk m c 1 t) y
      = probSlices (V m c main_v1) (V m c main_v3) (((cfg0.win 4).blk t).view.emb y) := fun y => by
    rw [eq_ix3 y]; exact key _ _ _
  funext y
  exact key' y

/-- The output block a point writes back is its block of `outSlices` of the region's queries, keys and values. -/
theorem flushed3_eq (c : Dev nD) (t : Fin cfg0.N) :
    (dats m 0 c).flushed 3 t
      = ((cfg0.win 3).blk t).view.read (Elt Ideal) (outSlices (V m c main_v1) (V m c main_v3) (V m c main_v5)) := by
  show (cfg0.win 3).cut (grid0.coords t) ((dats m 0 c).after 3 t) = _
  rw [after0_3]
  unfold out0_3
  rw [View.canon_unit_zero hz3]
  simp only [View.ld_unit_zero (S := S1x512x64) hz3, View.ld_unit_zero (S := S1x2048x64) hz3]
  obtain ⟨e00, e01, e02, e10, e11, e12, e20, e21, e22, e30, e31, e32, e42, b40, b41⟩ := idx_facts t
  have key : ∀ (u : Fin 1) (r : Fin 512) (d : Fin 64),
      k0_pay3 (iblk m c 0 t) (iblk m c 1 t) (iblk m c 2 t) (ix3 u r d)
        = outSlices (V m c main_v1) (V m c main_v3) (V m c main_v5) (((cfg0.win 3).blk t).view.emb (ix3 u r d)) := by
    intro u r d
    have hu : u.val = 0 := by omega
    refine pay3_block _ _ _ _ _ _ u r d _ ?_ ?_ ?_ ?_
    · intro d'
      show V m c main_v1 (((cfg0.win 0).blk t).view.emb (ix3 (0 : Fin 1) r d')) = V m c main_v1 _
      refine congrArg _ (funext fun a => Fin.ext ?_)
      match a with
      | ⟨0, _⟩ => show win0_0.index t (0 : Fin 3) * 1 + 1 * 0 = win0_3.index t (0 : Fin 3) * 1 + 1 * u.val; omega
      | ⟨1, _⟩ => show win0_0.index t (1 : Fin 3) * 512 + 1 * r.val = win0_3.index t (1 : Fin 3) * 512 + 1 * r.val; omega
      | ⟨2, _⟩ => show win0_0.index t (2 : Fin 3) * 64 + 1 * d'.val = d'.val; omega
    · intro j' d'
      show V m c main_v3 (((cfg0.win 1).blk t).view.emb (ix3 (0 : Fin 1) j' d')) = V m c main_v3 _
      refine congrArg _ (funext fun a => Fin.ext ?_)
      match a with
      | ⟨0, _⟩ => show win0_1.index t (0 : Fin 3) * 1 + 1 * 0 = win0_3.index t (0 : Fin 3) * 1 + 1 * u.val; omega
      | ⟨1, _⟩ => show win0_1.index t (1 : Fin 3) * 2048 + 1 * j'.val = j'.val; omega
      | ⟨2, _⟩ => show win0_1.index t (2 : Fin 3) * 64 + 1 * d'.val = d'.val; omega
    · intro j' d'
      show V m c main_v5 (((cfg0.win 2).blk t).view.emb (ix3 (0 : Fin 1) j' d')) = V m c main_v5 _
      refine congrArg _ (funext fun a => Fin.ext ?_)
      match a with
      | ⟨0, _⟩ => show win0_2.index t (0 : Fin 3) * 1 + 1 * 0 = win0_3.index t (0 : Fin 3) * 1 + 1 * u.val; omega
      | ⟨1, _⟩ => show win0_2.index t (1 : Fin 3) * 2048 + 1 * j'.val = j'.val; omega
      | ⟨2, _⟩ => show win0_2.index t (2 : Fin 3) * 64 + 1 * d'.val = d'.val; omega
    · show d.val = win0_3.index t (2 : Fin 3) * 64 + 1 * d.val; omega
  have key' : ∀ y : S1x512x64.Idx, k0_pay3 (iblk m c 0 t) (iblk m c 1 t) (iblk m c 2 t) y
      = outSlices (V m c main_v1) (V m c main_v3) (V m c main_v5) (((cfg0.win 3).blk t).view.emb y) := fun y => by
    rw [eq_ix3 y]; exact key _ _ _
  funext y
  exact key' y

/-! ## The blocks tile the arrays -/

theorem mem_blk4 (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v6_1).slice (win0_4.rect t)).set ↔ _
  rw [View.set_slice_whole, Rect.mem_set_unit]
  exact Iff.rfl

theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v6_0).slice (win0_3.rect t)).set ↔ _
  rw [View.set_slice_whole, Rect.mem_set_unit]
  exact Iff.rfl

/-- Every index of the probability array is in the block of the point (slice, row / 512). -/
theorem cover4 (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht, -⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every index of the output array is in the block of the point (slice, row / 512). -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, -, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-! ## The arrays after the region -/

/-- The probability array after the region. -/
theorem final4 (c : Dev nD) : (dats m 0 c).arrAt 4 cfg0.N = probSlices (V m c main_v1) (V m c main_v3) :=
  (dats m 0 c).arrAt_eq_of_cover 4 _ (fun t _ => flushed4_eq m c t) cover4

/-- The output array after the region. -/
theorem final3 (c : Dev nD) : (dats m 0 c).arrAt 3 cfg0.N = outSlices (V m c main_v1) (V m c main_v3) (V m c main_v5) :=
  (dats m 0 c).arrAt_eq_of_cover 3 _ (fun t _ => flushed3_eq m c t) cover3

end Cert.Attn.Blocks

end
-- ==== Proof.Kernel.lean ====
/- The idealized kernel program's run: its two results as functions of its three arguments.

   After the region the two result arrays are the slice-wise probabilities and mixtures of the region's input
   arrays; the program returns them with the merged batch-head axis split back, and the region's inputs are the
   arguments with that axis merged. Entry (b, h, ., .) of each result therefore depends only on the rows of batch
   `b` and head `h` of the arguments: the probability array and the output array of the specification. -/
import proofs.«149483_j30562987278888_2_alg».proof.Proof.Gen.KernelIdeal.Frame
import proofs.«149483_j30562987278888_2_alg».proof.Proof.Arrays
import proofs.«149483_j30562987278888_2_alg».proof.Proof.Blocks
import proofs.«149483_j30562987278888_2_alg».proof.Proof.Spec
import Idealize.ShloMosaic.Lib.Pipeline.Value
import Idealize.ShloMosaic.Lib.StableHlo.Run

noncomputable section

namespace Cert.Attn.Kernel

open Cert.KernelIdeal Cert.KernelIdeal.Gen Idealize.ShloMosaic Idealize.ShloMosaic.TcCoe Idealize.SL.Sem
open Idealize.ShloMosaic.ValueIdx Cert.Attn Cert.Attn.Arrays Cert.Attn.Blocks

variable (m : (ℓ : Loc nD τ sig) → Buf (Elt Ideal) ℓ) (ρ : Dev nD → PrngReg)

/-- Query row `r` of merged slice 16 b + h of the region's queries is row (b, h, r) of the first argument. -/
theorem qrow_eq (c : Dev nD) (b : Fin 2) (h : Fin 16) (r : Fin 2048) (bh : Fin 32) (e : bh.val = b.val * 16 + h.val) :
    (fun d : Fin 64 => V m c main_v1 (ix3 bh r d)) = rowOf (m ((c : Thread nD τ).loc main_arg0)) b h r :=
  funext fun d => by rw [V_main_v1]; exact merge_apply _ _ bh r d b h e

/-- The rows of merged slice 16 b + h of the region's keys are the rows of batch `b`, head `h` of the second argument. -/
theorem krows_eq (c : Dev nD) (b : Fin 2) (h : Fin 16) (bh : Fin 32) (e : bh.val = b.val * 16 + h.val) :
    (fun (j : Fin 2048) (d : Fin 64) => V m c main_v3 (ix3 bh j d)) = rowsOf (m ((c : Thread nD τ).loc main_arg1)) b h :=
  funext fun j => funext fun d => by rw [V_main_v3]; exact merge_apply _ _ bh j d b h e

/-- The same for the values and the third argument. -/
theorem vrows_eq (c : Dev nD) (b : Fin 2) (h : Fin 16) (bh : Fin 32) (e : bh.val = b.val * 16 + h.val) :
    (fun (j : Fin 2048) (d : Fin 64) => V m c main_v5 (ix3 bh j d)) = rowsOf (m ((c : Thread nD τ).loc main_arg2)) b h :=
  funext fun j => funext fun d => by rw [V_main_v5]; exact merge_apply _ _ bh j d b h e

/-- The returned probabilities are the probability array of the arguments. -/
theorem tail_prob (c : Dev nD) :
    Pipeline.afterTail₀ cfgs (dats m) 0 (V0 m) [hostOps1] c main_v8
      = probArray (m ((c : Thread nD τ).loc main_arg0)) (m ((c : Thread nD τ).loc main_arg1)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v6_1)
      = probSlices (V m c main_v1) (V m c main_v3) :=
    (Pipeline.withArrays_arr spec0 launch0.win.arr_inj c _ _ 4).trans (final4 m c)
  rw [hw]
  funext i
  obtain ⟨b, h, r, j, rfl⟩ : ∃ (b : Fin 2) (h : Fin 16) (r j : Fin 2048), i = ix4 b h r j :=
    ⟨i 0, i 1, i 2, i 3, eq_ix4 i⟩
  show shapeCast S2x16x2048x2048 (probSlices (V m c main_v1) (V m c main_v3)) shapeCasts_S32x2048x2048_S2x16x2048x2048 (ix4 b h r j) = _
  refine (split_apply _ _ b h r j ⟨b.val * 16 + h.val, by omega⟩ rfl).trans ?_
  rw [probArray_ix4]
  show prob (fun d : Fin 64 => V m c main_v1 (ix3 (⟨b.val * 16 + h.val, by omega⟩ : Fin 32) r d))
      (fun (j' : Fin 2048) (d : Fin 64) => V m c main_v3 (ix3 (⟨b.val * 16 + h.val, by omega⟩ : Fin 32) j' d)) j = _
  rw [qrow_eq m c b h r _ rfl, krows_eq m c b h _ rfl]

/-- The returned output is the output array of the arguments. -/
theorem tail_out (c : Dev nD) :
    Pipeline.afterTail₀ cfgs (dats m) 0 (V0 m) [hostOps1] c main_v7
      = outArray (m ((c : Thread nD τ).loc main_arg0)) (m ((c : Thread nD τ).loc main_arg1)) (m ((c : Thread nD τ).loc main_arg2)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v6_0)
      = outSlices (V m c main_v1) (V m c main_v3) (V m c main_v5) :=
    (Pipeline.withArrays_arr spec0 launch0.win.arr_inj c _ _ 3).trans (final3 m c)
  rw [hw]
  funext i
  obtain ⟨b, h, r, d, rfl⟩ : ∃ (b : Fin 2) (h : Fin 16) (r : Fin 2048) (d : Fin 64), i = ix4 b h r d :=
    ⟨i 0, i 1, i 2, i 3, eq_ix4 i⟩
  show shapeCast S2x16x2048x64 (outSlices (V m c main_v1) (V m c main_v3) (V m c main_v5)) shapeCasts_S32x2048x64_S2x16x2048x64 (ix4 b h r d) = _
  refine (split_apply _ _ b h r d ⟨b.val * 16 + h.val, by omega⟩ rfl).trans ?_
  rw [outArray_ix4]
  show mix (fun d' : Fin 64 => V m c main_v1 (ix3 (⟨b.val * 16 + h.val, by omega⟩ : Fin 32) r d'))
      (fun (j' : Fin 2048) (d' : Fin 64) => V m c main_v3 (ix3 (⟨b.val * 16 + h.val, by omega⟩ : Fin 32) j' d'))
      (fun (j' : Fin 2048) (d' : Fin 64) => V m c main_v5 (ix3 (⟨b.val * 16 + h.val, by omega⟩ : Fin 32) j' d')) d = _
  rw [qrow_eq m c b h r _ rfl, krows_eq m c b h _ rfl, vrows_eq m c b h _ rfl]

/-- Every weakly fair execution of the idealized kernel program terminates with the output array and the
    probability array of its arguments in its two results, and its arguments unchanged. -/
theorem run : θ_run defs (onTc (τ := τ) (main (F := Ideal))) ⟨m, fun _ => 0, ρ⟩ fun r => ∀ c : Dev nD,
      r.2.mem ((c : Thread nD τ).loc main_v7)
        = outArray (m ((c : Thread nD τ).loc main_arg0)) (m ((c : Thread nD τ).loc main_arg1)) (m ((c : Thread nD τ).loc main_arg2))
      ∧ r.2.mem ((c : Thread nD τ).loc main_v8)
        = probArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v7 (Pipeline.mem_restRefs_of main_v7 (by decide) (by decide))).trans (tail_out m c),
      ((h c).2 main_v8 (Pipeline.mem_restRefs_of main_v8 (by decide) (by decide))).trans (tail_prob m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Kernel

end
-- ==== Proof.lean ====
/- Scaled dot-product attention: a tiled kernel against its whole-array reference, over the extended reals.

   Both programs take queries, keys and values of shape [2, 16, 2048, 64] and return the attention output
   and the attention probabilities. For each batch and head, the probabilities are the row softmax of the
   query-key inner products scaled by 1/8, and the output is the probabilities times the values.

   The kernel merges batch and head into one axis of 32 slices, and on a 32 x 4 grid handles 512 query rows of
   one slice at a time against all 2048 keys and values of that slice; the reference computes the same with
   batched contractions over the whole arrays. On the extended reals a change of float format is the identity,
   the matrix products and the lane reductions are plain sums and folds of `max`, and the reference's scale
   1 / sqrt 64 is the kernel's literal 0.125, so the two programs' results are one function of the arguments
   (`Cert.Attn.outArray`, `Cert.Attn.probArray`): no law beyond reading each operation at an index is needed, and
   finiteness of the inputs is never used.

   The three frame claims are the generated frames (for the reference, its generated run with the results
   dropped); the idealization rewrote nothing, so its claim is trivial. -/
import proofs.«149483_j30562987278888_2_alg».proof.Defs
import proofs.«149483_j30562987278888_2_alg».proof.Proof.Gen.Kernel
import proofs.«149483_j30562987278888_2_alg».proof.Proof.Gen.Kernel.Skeleton
import proofs.«149483_j30562987278888_2_alg».proof.Proof.Gen.Kernel.Launch
import proofs.«149483_j30562987278888_2_alg».proof.Proof.Gen.Kernel.Points
import proofs.«149483_j30562987278888_2_alg».proof.Proof.Gen.Kernel.Frame
import proofs.«149483_j30562987278888_2_alg».proof.Proof.Gen.KernelIdeal
import proofs.«149483_j30562987278888_2_alg».proof.Proof.Gen.KernelIdeal.Skeleton
import proofs.«149483_j30562987278888_2_alg».proof.Proof.Gen.KernelIdeal.Launch
import proofs.«149483_j30562987278888_2_alg».proof.Proof.Gen.KernelIdeal.Points
import proofs.«149483_j30562987278888_2_alg».proof.Proof.Gen.KernelIdeal.Frame
import proofs.«149483_j30562987278888_2_alg».proof.Proof.Gen.ReferenceIdeal
import proofs.«149483_j30562987278888_2_alg».proof.Proof.Gen.ReferenceIdeal.Run
import proofs.«149483_j30562987278888_2_alg».proof.Proof.Gen.ReferenceIdeal.Read
import proofs.«149483_j30562987278888_2_alg».proof.Proof.Gen.Pre_finite_inputs
import proofs.«149483_j30562987278888_2_alg».proof.Proof.Reference
import proofs.«149483_j30562987278888_2_alg».proof.Proof.Kernel
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the three arguments both idealized programs end with the output array and the
    probability array of those arguments. -/
theorem algebraic : Cert.algebraic_KernelIdeal_ReferenceIdeal := by
  intro m ρ m' ρ' _ hagree
  refine ⟨_, _, Cert.Attn.Kernel.run m ρ, ?_⟩
  refine (θ_run Cert.ReferenceIdeal.defs _ _).mono (fun _ h c => ?_) (Cert.ReferenceIdeal.Value.run (F := Ideal) m' ρ')
  obtain ⟨h16, h15, ha0, ha1, ha2⟩ := h c
  refine ⟨h16.trans ?_, h15.trans ?_, ha0, ha1, ha2⟩
  · rw [Cert.ReferenceIdeal.Read.val_main_v16_eq, Cert.Attn.Reference.out_eq, (hagree c).1, (hagree c).2.1, (hagree c).2.2]
  · rw [Cert.ReferenceIdeal.Read.val_main_v15_eq, Cert.Attn.Reference.prob_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
